-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S64x256 : Shape := ⟨2, ![64, 256]⟩
abbrev S40x64 : Shape := ⟨2, ![40, 64]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S40x64 : S_.BroadcastsInDim S40x64 (![] : Fin 0 → Fin S40x64.rank)
  reducesTo_S40x64_S_d0_1 : S40x64.ReducesTo [0, 1] S_

variable [Facts]

def fn {F : FTy → Type} [FloatOps F] (main_arg0 : FVec F S100000x256 .f32) (main_arg1 : FVec F S64x256 .f32) (main_arg2 : FVec F S40x64 .f32) (main_arg3 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S40x64 .f32 := Host.absf main_arg2
  let main_cst_2 : FVec F S_ .f32 := constant S_ .f32 0x7F800000#32
  let main_v10 : FVec F S40x64 .f32 := broadcastInDim S40x64 ![] bcast_S_S40x64 main_cst_2
  let main_v11 : IVec S40x64 1 := cmpf .olt main_v9 main_v10
  let main_c_3 : IVec S_ 1 := constantI S_ 1 1#1
  let main_v12 : IVec S_ 1 := (fun x v => Host.reduce IntOp.andi x v reducesTo_S40x64_S_d0_1 h_S_) main_v11 main_c_3
  let main_v13 : IVec S_ 1 := andi main_v8 main_v12
  main_v13
-- ==== Kernel.lean ====
abbrev S100000x256 : Shape := ⟨2, ![100000, 256]⟩
abbrev S64x256 : Shape := ⟨2, ![64, 256]⟩
abbrev S40x64 : Shape := ⟨2, ![40, 64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S100000x40 : Shape := ⟨2, ![100000, 40]⟩
abbrev S5000x40 : Shape := ⟨2, ![5000, 40]⟩
abbrev S1700000x40 : Shape := ⟨2, ![1700000, 40]⟩

abbrev nBuf : Space → Nat
  | .hbm => 78
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S64x256, .f32⟩
  | .hbm, ⟨2, _⟩ => ⟨S40x64, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S1700000x1, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S100000x40, .f32⟩
  | .hbm, ⟨62, _⟩ => ⟨S1700000x1, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x40, .f32⟩
  | .hbm, ⟨72, _⟩ => ⟨S1700000x40, .f32⟩
  | .hbm, ⟨73, _⟩ => ⟨S1700000x40, .f32⟩
  | .hbm, ⟨74, _⟩ => ⟨S_, .f32⟩
  | .hbm, ⟨75, _⟩ => ⟨S100000x40, .f32⟩
  | .hbm, ⟨76, _⟩ => ⟨S1700000x1, .i32⟩
  | .hbm, ⟨77, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S64x256, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S40x64, .f32⟩
  | .local _ .vmem, ⟨8, _⟩ => ⟨S5000x40, .f32⟩
  | .local _ .vmem, ⟨9, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S40x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S40x64_S40x64_0_0 : ∀ a, (![0, 0] : Fin 2 → Nat) a + S40x64.size a ≤ S40x64.size a
  h_S40x64 : 0 < S40x64.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S64x256_S5000x64_1_1_0_0_n_n_wf : DotDims.WF S5000x256 S64x256 S5000x64 [1] [1] [0] [0] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S40x64_S5000x40_1_1_0_0_n_n_wf : DotDims.WF S5000x64 S40x64 S5000x40 [1] [1] [0] [0] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S40x64.size a ≤ S40x64.size a
  hwx1_1 : ∀ i : grid1.Coords, EltTy.bits .f32 = 32 ∨ (Rect.block (s := S40x64) S40x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S64x256_S5000x64_1_1_0_0_n_n : DotDims S5000x256 S64x256 S5000x64 where
  lhsContracting := [1]
  rhsContracting := [1]
  lhsNonContracting := [0]
  rhsNonContracting := [0]
  lhsBatch := []
  rhsBatch := []
  wf := dot_S5000x256_S64x256_S5000x64_1_1_0_0_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S40x64_S5000x40_1_1_0_0_n_n : DotDims S5000x64 S40x64 S5000x40 where
  lhsContracting := [1]
  rhsContracting := [1]
  lhsNonContracting := [0]
  rhsNonContracting := [0]
  lhsBatch := []
  rhsBatch := []
  wf := dot_S5000x64_S40x64_S5000x40_1_1_0_0_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S40x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S64x256 : Shape := ⟨2, ![64, 256]⟩
abbrev S40x64 : Shape := ⟨2, ![40, 64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S256x64 : Shape := ⟨2, ![256, 64]⟩
abbrev S100000x64 : Shape := ⟨2, ![100000, 64]⟩
abbrev S1700000x64 : Shape := ⟨2, ![1700000, 64]⟩
abbrev S64x40 : Shape := ⟨2, ![64, 40]⟩
abbrev S100000x40 : Shape := ⟨2, ![100000, 40]⟩
abbrev S1700000x40 : Shape := ⟨2, ![1700000, 40]⟩

abbrev nBuf : Space → Nat
  | .hbm => 83
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S64x256, .f32⟩
  | .hbm, ⟨2, _⟩ => ⟨S40x64, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S256x64, .f32⟩
  | .hbm, ⟨45, _⟩ => ⟨S100000x64, .f32⟩
  | .hbm, ⟨46, _⟩ => ⟨S1700000x1, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S64x40, .f32⟩
  | .hbm, ⟨66, _⟩ => ⟨S100000x40, .f32⟩
  | .hbm, ⟨67, _⟩ => ⟨S1700000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x40, .f32⟩
  | .hbm, ⟨77, _⟩ => ⟨S1700000x40, .f32⟩
  | .hbm, ⟨78, _⟩ => ⟨S1700000x40, .f32⟩
  | .hbm, ⟨79, _⟩ => ⟨S_, .f32⟩
  | .hbm, ⟨80, _⟩ => ⟨S100000x40, .f32⟩
  | .hbm, ⟨81, _⟩ => ⟨S1700000x1, .i32⟩
  | .hbm, ⟨82, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call1_cst : Ref sig .tc := ⟨.hbm, 62, rfl⟩
abbrev main_call1_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x256_S256x64_1_0 : S64x256.Transposes [1, 0] S256x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S40x64_S64x40_1_0 : S40x64.Transposes [1, 0] S64x40
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  A two-layer graph convolution over a fixed edge list, as one function of its four arguments.

  The edge list `e : [2, E]` gives E source/target pairs; N self loops are appended, so there are E + N weighted
  edges.  Every edge (r, c) carries the weight dinv r · dinv c, where dinv v is the inverse square root of v's degree
  (the number of edges whose source is v) when that degree is positive and zero otherwise.  One aggregation step sends
  a feature table `h : [N, d]` to the table whose row r is the sum, over the edges with source r, of the edge's weight
  times row c of `h`.  The network is
      aggregate (relu (aggregate (x · W1ᵀ)) · W2ᵀ)
  with `x : [N, 256]`, `W1 : [64, 256]`, `W2 : [40, 64]`.

  Both programs compute the edge ids, the weights and the two aggregation steps with the same host operations, so
  these are carried here as opaque terms of those operations; only the two dense products are stated index by index,
  as finite sums on the extended reals: entry (i, j) of `x · W1ᵀ` is `∑ k, x (i, k) * W1 (j, k)`, and entry (i, j) of
  `relu h · W2ᵀ` is `∑ k, max (h (i, k)) 0 * W2 (j, k)`.  A finite sum on the extended reals is a sum in a commutative
  monoid: no order of summation matters and nothing here needs the entries to be finite.
-/
import proofs.«143973_j66726611911374_2_alg».proof.Proof.Gen.ReferenceIdeal
import Idealize.ShloMosaic.PureOps.Ideal
import Idealize.ShloMosaic.Lib.ValueIdx

noncomputable section

namespace Cert.Gcn

open Idealize.ShloMosaic Idealize.ShloMosaic.ValueIdx Cert.ReferenceIdeal Cert.ReferenceIdeal.Gen

/-- The arrays' types, by shape. -/
abbrev Ids := IVec S1700000 32
abbrev Weights := FVec Ideal S1700000 .f32
abbrev EdgeList := IVec S2x1600000 32
abbrev Tab64 := FVec Ideal S100000x64 .f32
abbrev Tab40 := FVec Ideal S100000x40 .f32

/-- Row `r` of the edge list, followed by the node numbers 0 … N − 1 (the self loops). -/
def sourceIds (e : EdgeList) : Ids :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

def targetIds (e : EdgeList) : Ids :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative id counts from the end: N is added to it. As a column of start indices. -/
def startColumn (ids : Ids) : IVec S1700000x1 32 :=
  broadcastInDim S1700000x1 ![0] bcast_S1700000_S1700000x1_0 (select (cmpi .slt ids (broadcastInDim S1700000 ![] bcast_S_S1700000 (constantI S_ 32 0#32))) (addi ids (broadcastInDim S1700000 ![] bcast_S_S1700000 (constantI S_ 32 100000#32))) ids)

/-- The inverse square root of each node's degree, zero where the degree is not positive. -/
def degInvSqrt (rows : Ids) : FVec Ideal S100000 .f32 :=
  select (cmpf (F := Ideal) .ogt (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 rows) (broadcastInDim S1700000 ![] bcast_S_S1700000 (constant (F := Ideal) S_ .f32 0x3F800000#32))) (broadcastInDim S100000 ![] bcast_S_S100000 (constant (F := Ideal) S_ .f32 0x00000000#32))) (Host.rsqrt (F := Ideal) (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 rows) (broadcastInDim S1700000 ![] bcast_S_S1700000 (constant (F := Ideal) S_ .f32 0x3F800000#32)))) (broadcastInDim S100000 ![] bcast_S_S100000 (id (constant (F := Ideal) S_ .f32 0x00000000#32)))

/-- Each edge's weight: the product of the two end nodes' inverse square root degrees. -/
def edgeWeights (rows cols : Ids) : Weights :=
  mulf (F := Ideal) (Host.gather gather_S100000_S1700000x1_S1700000_n_0_n_n_0_1_1 (degInvSqrt rows) (startColumn rows)) (Host.gather gather_S100000_S1700000x1_S1700000_n_0_n_n_0_1_1 (degInvSqrt rows) (startColumn cols))

/-- One aggregation step on a table of 64 columns. -/
def aggregate64 (rows cols : Ids) (w : Weights) (h : Tab64) : Tab64 :=
  Host.scatterAdd (F := Ideal) scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 rows) (mulf (F := Ideal) (broadcastInDim S1700000x64 ![0, 1] bcast_S1700000x1_S1700000x64_0_1 (broadcastInDim S1700000x1 ![0] bcast_S1700000_S1700000x1_0 w)) (Host.gather gather_S100000x64_S1700000x1_S1700000x64_1_0_n_n_0_1_164 h (startColumn cols)))

/-- One aggregation step on a table of 40 columns. -/
def aggregate40 (rows cols : Ids) (w : Weights) (h : Tab40) : Tab40 :=
  Host.scatterAdd (F := Ideal) scatter_S100000x40_S1700000x1_S1700000x40_1_0_0_1 (broadcastInDim S100000x40 ![] bcast_S_S100000x40 (constant (F := Ideal) S_ .f32 0x00000000#32)) (broadcastInDim S1700000x1 ![0] bcast_S1700000_S1700000x1_0 rows) (mulf (F := Ideal) (broadcastInDim S1700000x40 ![0, 1] bcast_S1700000x1_S1700000x40_0_1 (broadcastInDim S1700000x1 ![0] bcast_S1700000_S1700000x1_0 w)) (Host.gather gather_S100000x40_S1700000x1_S1700000x40_1_0_n_n_0_1_140 h (startColumn cols)))

/-- Entry (i, j) of `x · Wᵀ` for `x : [n, K]` and `W : [d, K]`: the inner product of row i of `x` with row j of `W`. -/
def rowsByRows {n K d : ℕ} (x : (⟨2, ![n, K]⟩ : Shape).Idx → EReal) (W : (⟨2, ![d, K]⟩ : Shape).Idx → EReal) :
    (⟨2, ![n, d]⟩ : Shape).Idx → EReal :=
  fun i => ∑ k : Fin K, x (ix2 (i 0) k) * W (ix2 (i 1) k)

/-- The same after the rectifier on `x`: `max (·) 0` entry by entry, the zero being the zero word's value. -/
def reluRowsByRows {n K d : ℕ} (x : (⟨2, ![n, K]⟩ : Shape).Idx → EReal) (W : (⟨2, ![d, K]⟩ : Shape).Idx → EReal) :
    (⟨2, ![n, d]⟩ : Shape).Idx → EReal :=
  fun i => ∑ k : Fin K, max (x (ix2 (i 0) k)) (Ideal.ofBits .f32 0x00000000#32) * W (ix2 (i 1) k)

/-- An inner product of two rows reads those rows only. -/
theorem rowsByRows_congr {n n' K d d' : ℕ} (x : (⟨2, ![n, K]⟩ : Shape).Idx → EReal) (W : (⟨2, ![d, K]⟩ : Shape).Idx → EReal)
    (x' : (⟨2, ![n', K]⟩ : Shape).Idx → EReal) (W' : (⟨2, ![d', K]⟩ : Shape).Idx → EReal)
    (i : (⟨2, ![n, d]⟩ : Shape).Idx) (i' : (⟨2, ![n', d']⟩ : Shape).Idx)
    (hx : ∀ k : Fin K, x (ix2 (i 0) k) = x' (ix2 (i' 0) k)) (hW : ∀ k : Fin K, W (ix2 (i 1) k) = W' (ix2 (i' 1) k)) :
    rowsByRows x W i = rowsByRows x' W' i' := by
  unfold rowsByRows
  exact Finset.sum_congr rfl fun k _ => congrArg₂ (· * ·) (hx k) (hW k)

theorem reluRowsByRows_congr {n n' K d d' : ℕ} (x : (⟨2, ![n, K]⟩ : Shape).Idx → EReal) (W : (⟨2, ![d, K]⟩ : Shape).Idx → EReal)
    (x' : (⟨2, ![n', K]⟩ : Shape).Idx → EReal) (W' : (⟨2, ![d', K]⟩ : Shape).Idx → EReal)
    (i : (⟨2, ![n, d]⟩ : Shape).Idx) (i' : (⟨2, ![n', d']⟩ : Shape).Idx)
    (hx : ∀ k : Fin K, x (ix2 (i 0) k) = x' (ix2 (i' 0) k)) (hW : ∀ k : Fin K, W (ix2 (i 1) k) = W' (ix2 (i' 1) k)) :
    reluRowsByRows x W i = reluRowsByRows x' W' i' := by
  unfold reluRowsByRows
  exact Finset.sum_congr rfl fun k _ => congrArg₂ (· * ·) (congrArg (max · _) (hx k)) (hW k)

/-- The whole network's result. -/
def result (x : FVec Ideal S100000x256 .f32) (W1 : FVec Ideal S64x256 .f32) (W2 : FVec Ideal S40x64 .f32) (e : EdgeList) : Tab40 :=
  aggregate40 (sourceIds e) (targetIds e) (edgeWeights (sourceIds e) (targetIds e))
    (reluRowsByRows (aggregate64 (sourceIds e) (targetIds e) (edgeWeights (sourceIds e) (targetIds e)) (rowsByRows x W1)) W2)

end Cert.Gcn

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.RefIsSpec.lean ====
/-
  The reference program's result is the network's result (Spec.lean).

  The reference's composed term applies, to the four arguments, exactly the host operations the specification is
  written with, except that each dense product is printed as a transpose of the weight table followed by a plain
  `[n, K] × [K, d]` dot_general, and the rectifier as a maximum with a zero splat.  Entry (i, j) of the plain product
  with the transposed table is `∑ k, x (i, k) * Wᵀ (k, j) = ∑ k, x (i, k) * W (j, k)`: the rows-by-rows product.
-/
import proofs.«143973_j66726611911374_2_alg».proof.Proof.RefRun
import proofs.«143973_j66726611911374_2_alg».proof.Proof.Spec
import proofs.«143973_j66726611911374_2_alg».proof.Proof.LibDense
import Idealize.ShloMosaic.Lib.Pipeline.Value
import Idealize.ShloMosaic.Lib.ValueIdx

noncomputable section

namespace Cert.ReferenceIdeal.Hand

open Cert.ReferenceIdeal Cert.ReferenceIdeal.Gen Cert.ReferenceIdeal.Value
open Idealize.ShloMosaic Idealize.ShloMosaic.TcCoe Idealize.ShloMosaic.ValueIdx Idealize.SL.Sem

/-- A plain product with the transposed weight table is the rows-by-rows product with the table itself. -/
theorem dot_transpose {n K d : ℕ} (x : (⟨2, ![n, K]⟩ : Shape).Idx → EReal) (W : (⟨2, ![d, K]⟩ : Shape).Idx → EReal)
    (h : (⟨2, ![d, K]⟩ : Shape).Transposes [1, 0] ⟨2, ![K, d]⟩) :
    FloatOps.dotGeneral (F := Ideal) (φ₁ := .f32) (φ₂ := .f32) (DotDims.plain n K d) none .single x (transpose ⟨2, ![K, d]⟩ [1, 0] W h)
      = Cert.Gcn.rowsByRows x W := by
  funext i
  rw [Cert.LibDense.dotGeneral_plain]
  unfold Cert.LibDense.prod Cert.Gcn.rowsByRows
  refine Finset.sum_congr rfl fun k _ => congrArg (x (ix2 (i 0) k) * ·) ?_
  exact transpose_apply [1, 0] W h (ix2 k (i 1)) (ix2 (i 1) k) fun b => by
    match b with
    | ⟨0, _⟩ => rfl
    | ⟨1, _⟩ => rfl

/-- The same after the rectifier: the maximum with the zero splat, entry by entry, is `max (·) 0`. -/
theorem dot_relu_transpose {n K d : ℕ} (x : (⟨2, ![n, K]⟩ : Shape).Idx → EReal) (W : (⟨2, ![d, K]⟩ : Shape).Idx → EReal)
    (h : (⟨2, ![d, K]⟩ : Shape).Transposes [1, 0] ⟨2, ![K, d]⟩)
    (hb : (⟨0, ![]⟩ : Shape).BroadcastsInDim ⟨2, ![n, K]⟩ (![] : Fin 0 → Fin 2)) :
    FloatOps.dotGeneral (F := Ideal) (φ₁ := .f32) (φ₂ := .f32) (DotDims.plain n K d) none .single
        (maximumf (F := Ideal) (φ := .f32) x (broadcastInDim ⟨2, ![n, K]⟩ ![] hb (constant (F := Ideal) ⟨0, ![]⟩ .f32 0x00000000#32)))
        (transpose ⟨2, ![K, d]⟩ [1, 0] W h)
      = Cert.Gcn.reluRowsByRows x W := by
  rw [dot_transpose]
  rfl

/-- The reference's result term is the specification's result of the four arguments. -/
theorem result_eq (m : (ℓ : Loc nD τ sig) → Buf (Elt Ideal) ℓ) (c : Dev nD) :
    res_main_v60 (F := Ideal) m c = Cert.Gcn.result (m ((c.tc : Thread nD τ).loc main_arg0)) (m ((c.tc : Thread nD τ).loc main_arg1))
      (m ((c.tc : Thread nD τ).loc main_arg2)) (m ((c.tc : Thread nD τ).loc main_arg3)) := by
  unfold Cert.Gcn.result
  rw [← dot_transpose (n := 100000) (K := 256) (d := 64) _ _ transposes_S64x256_S256x64_1_0,
    ← dot_relu_transpose (n := 100000) (K := 64) (d := 40) _ _ transposes_S40x64_S64x40_1_0 bcast_S_S100000x64]
  unfold res_main_v60
  rfl

end Cert.ReferenceIdeal.Hand

end
-- ==== Proof.KernelRun.lean ====
/-
  The idealized kernel program's run with its result named.

  The program is two grid kernels among five stretches of host operations.  Its generated frame certificate folds the
  device's buffer contents through the seven segments (the contents `W0` at launch, `W1 … W7` after each segment: a
  stretch rewrites the buffers its operations write, a kernel region leaves each of its output arrays at what its
  write-backs fold to) and reads the last contents `W7` against the final state, keeping the four argument arrays.
  The same reading at the result buffer gives the result: every weakly fair execution terminates with the result
  array at `W7`'s contents of that buffer, and the arguments unchanged.
-/
import proofs.«143973_j66726611911374_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the seven segments, the last boundary's contents read at the result buffer and at the arguments. -/
theorem run_result : θ_run defs (onTc (τ := τ) (main (F := F))) ⟨m, fun _ => 0, ρ⟩ (fun r => ∀ c : Dev nD,
      r.2.mem ((c.tc : Thread nD τ).loc main_v57) = W7 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v57 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Hand

end
-- ==== Proof.LibMatmulTransposedRhs.lean ====
/-
  A rows-by-rows matrix product into a zero accumulator, read at an index on the extended reals.

  For `A : [M, K]` and `B : [N, K]`, both contracted on their last axis, the product accumulated into the zero splat
  is, at `(i, j)`, the finite sum `∑ k, A (i, k) * B (j, k)`: the inner product of row `i` of `A` with row `j` of `B`.
  At the exact values no rounding and no chunk order is left, and the contraction index with its one axis is the
  coordinate `k`. Generic in the three extents and the two operand formats; nothing here needs finiteness.
-/
import Idealize.ShloMosaic.PureOps.Ideal
import Idealize.ShloMosaic.PureOps.Ideal.Laws
import Idealize.ShloMosaic.Lib.ValueIdx

noncomputable section

namespace Cert.LibMatmulTransposedRhs

open Idealize.ShloMosaic Idealize.ShloMosaic.ValueIdx

/-- The product `[M, K] × [N, K]ᵀ` into the zero accumulator at `(i, j)` is `∑ k, A (i, k) * B (j, k)`. -/
theorem matmul_zero_apply {M K N : ℕ} {φ₁ φ₂ : FTy} (prec : Option ContractPrecision)
    (A : FVec Ideal ⟨2, ![M, K]⟩ φ₁) (B : FVec Ideal ⟨2, ![N, K]⟩ φ₂) (i : Fin M) (j : Fin N) :
    FloatOps.matmul (DotDims.transposedRhs M K N) prec A B (constant ⟨2, ![M, N]⟩ .f32 0x00000000#32) (ix2 i j)
      = ∑ k : Fin K, A (ix2 i k) * B (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.LibMatmulTransposedRhs

end
-- ==== Proof.KernelBlocks0.lean ====
/-
  What the first grid kernel leaves in its output array, as one function of the arrays it finds.

  The grid has 20 points; point t reads rows 5000·t … 5000·t + 4999 of the left operand `a : [100000, 256]` and the
  whole right operand `W : [64, 256]`, multiplies the two blocks on the matrix unit into a zero accumulator,
  contracting the last axis of both (the change of format on the way in is the identity on the exact values), and
  writes the 5000 × 64 product back as rows 5000·t … 5000·t + 4999 of the output.  So entry (r, j) of the block
  at point t is `∑ k, a (5000·t + r, k) * W (j, k)`, which is entry (5000·t + r, j) of the rows-by-rows product of
  the whole arrays; the 20 blocks tile the output, row i lying in the block of point i / 5000.
-/
import proofs.«143973_j66726611911374_2_alg».proof.Proof.Gen.KernelIdeal.Frame
import proofs.«143973_j66726611911374_2_alg».proof.Proof.Spec
import proofs.«143973_j66726611911374_2_alg».proof.Proof.LibMatmulTransposedRhs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The body's product at an entry of the block: the inner product of row `r` of the left block with row `j` of the
    right block. -/
theorem product0_apply (x0 : Vec Ideal S5000x256 .f32) (x1 : Vec Ideal S64x256 .f32) (y : S5000x64.Idx) :
    k0_pay1 (F := Ideal) x0 x1 y = ∑ k : Fin 256, x0 (ix2 (y 0) k) * x1 (ix2 (y 1) k) := by
  obtain ⟨r, j, rfl⟩ : ∃ (r : Fin 5000) (j : Fin 64), y = ix2 r j := ⟨y 0, y 1, eq_ix2 y⟩
  exact Cert.LibMatmulTransposedRhs.matmul_zero_apply (M := 5000) (K := 256) (N := 64) (φ₁ := .bf16) (φ₂ := .bf16) none
    (truncf .bf16 x0 bitsLt_bf16_f32) (truncf .bf16 x1 bitsLt_bf16_f32) r j

/-- The printed index maps over the grid: the left operand's and the output's row blocks move together, every other
    block index is zero. -/
theorem index_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of the rows-by-rows product of the two arrays as the region finds them. -/
theorem flushed0_eq (c : Dev nD) (t : Fin cfg0.N) :
    (dat0 V c).flushed 2 t = ((cfg0.win 2).blk t).view.read (Elt Ideal)
      (Cert.Gcn.rowsByRows (n := 100000) (K := 256) (d := 64) (V c main_arg0) (V c main_arg1)) := by
  show (cfg0.win 2).cut (grid0.coords t) ((dat0 V c).after 2 t) = _
  rw [after0_2]
  unfold out0_2
  rw [View.canon_unit_zero offsets_zero]
  simp only [View.ld_unit_zero (S := S5000x256) offsets_zero, View.ld_unit_zero (S := S64x256) offsets_zero]
  obtain ⟨e0, e1, e2, e3, e4, e5⟩ := index_facts0 t
  funext y
  refine (product0_apply (iblk0 V c 0 t) (iblk0 V c 1 t) y).trans ?_
  show _ = Cert.Gcn.rowsByRows (n := 100000) (K := 256) (d := 64) (V c main_arg0) (V c main_arg1) (((cfg0.win 2).blk t).view.emb y)
  unfold Cert.Gcn.rowsByRows
  refine Finset.sum_congr rfl fun k _ => congrArg₂ (· * ·) ?_ ?_
  · show V c main_arg0 (((cfg0.win 0).blk t).view.emb (ix2 (y 0) k)) = V c main_arg0 (ix2 ((((cfg0.win 2).blk t).view.emb y) 0) k)
    refine congrArg (V c main_arg0) (funext fun a => Fin.ext ?_)
    match a with
    | ⟨0, _⟩ => show win0_0.index t (0 : Fin 2) * 5000 + 1 * (y 0).val = win0_2.index t (0 : Fin 2) * 5000 + 1 * (y 0).val; rw [e0]
    | ⟨1, _⟩ => show win0_0.index t (1 : Fin 2) * 256 + 1 * k.val = k.val; rw [e1]; omega
  · show V c main_arg1 (((cfg0.win 1).blk t).view.emb (ix2 (y 1) k)) = V c main_arg1 (ix2 ((((cfg0.win 2).blk t).view.emb y) 1) k)
    refine congrArg (V c main_arg1) (funext fun a => Fin.ext ?_)
    match a with
    | ⟨0, _⟩ => show win0_1.index t (0 : Fin 2) * 64 + 1 * (y 1).val = win0_2.index t (1 : Fin 2) * 64 + 1 * (y 1).val; rw [e2, e4]
    | ⟨1, _⟩ => show win0_1.index t (1 : Fin 2) * 256 + 1 * k.val = k.val; rw [e3]; omega

/-- An index of the output array is in point `t`'s block iff each coordinate is in the block's range on its axis. -/
theorem mem_block0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The 20 row blocks tile the output: row `i` is in the block of point `i / 5000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e4, e5⟩ := index_facts0 t
  have e5' : win0_2.index t (0 : Fin 2) = (i 0).val / 5000 := e5
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; rw [e5']; omega
  | ⟨1, _⟩ => show win0_2.index t (1 : Fin 2) * 64 ≤ (i 1).val ∧ (i 1).val < win0_2.index t (1 : Fin 2) * 64 + 64; rw [e4]; omega

/-- The output array after the region: the rows-by-rows product of the two arrays as the region finds them. -/
theorem final0 (c : Dev nD) : (dat0 V c).arrAt 2 cfg0.N
    = Cert.Gcn.rowsByRows (n := 100000) (K := 256) (d := 64) (V c main_arg0) (V c main_arg1) :=
  (dat0 V c).arrAt_eq_of_cover 2 _ (fun t _ => flushed0_eq V c t) cover0

end Cert.KernelIdeal.Hand

end
-- ==== Proof.KernelBlocks1.lean ====
/-
  What the second grid kernel leaves in its output array, as one function of the arrays it finds.

  The grid has 20 points; point t reads rows 5000·t … 5000·t + 4999 of the left operand `h : [100000, 64]` and the
  whole right operand `W : [40, 64]`, takes the larger of each left entry and zero, multiplies the result with the
  right block on the matrix unit into a zero accumulator, contracting the last axis of both (the change of format on
  the way in is the identity on the exact values), and writes the 5000 × 40 product back as rows
  5000·t … 5000·t + 4999 of the output.  So entry (r, j) of the block at point t is
  `∑ k, max (h (5000·t + r, k)) 0 * W (j, k)`, which is entry (5000·t + r, j) of the rectified rows-by-rows product of
  the whole arrays; the 20 blocks tile the output, row i lying in the block of point i / 5000.
-/
import proofs.«143973_j66726611911374_2_alg».proof.Proof.Gen.KernelIdeal.Frame
import proofs.«143973_j66726611911374_2_alg».proof.Proof.Spec
import proofs.«143973_j66726611911374_2_alg».proof.Proof.LibMatmulTransposedRhs
import Idealize.ShloMosaic.Lib.Pipeline.Value
import Idealize.ShloMosaic.Lib.ValueIdx

set_option maxRecDepth 16384

noncomputable section

namespace Cert.KernelIdeal.Hand1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The body's product at an entry of the block: the inner product of the rectified row `r` of the left block with row
    `j` of the right block. -/
theorem product1_apply (x0 : Vec Ideal S5000x64 .f32) (x1 : Vec Ideal S40x64 .f32) (y : S5000x40.Idx) :
    k1_pay1 (F := Ideal) x0 x1 y
      = ∑ k : Fin 64, max (x0 (ix2 (y 0) k)) (Ideal.ofBits .f32 0x00000000#32) * x1 (ix2 (y 1) k) := by
  obtain ⟨r, j, rfl⟩ : ∃ (r : Fin 5000) (j : Fin 40), y = ix2 r j := ⟨y 0, y 1, eq_ix2 y⟩
  unfold k1_pay1
  rw [shapeCast_self x0 shapeCasts_S5000x64_S5000x64]
  exact Cert.LibMatmulTransposedRhs.matmul_zero_apply (M := 5000) (K := 64) (N := 40) (φ₁ := .bf16) (φ₂ := .bf16) none
    (truncf .bf16 (maximumf x0 (broadcast S5000x64 (Scalar.ofBits .f32 0x00000000#32))) bitsLt_bf16_f32)
    (truncf .bf16 x1 bitsLt_bf16_f32) r j

/-- The printed index maps over the grid: the left operand's and the output's row blocks move together, every other
    block index is zero. -/
theorem index_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- What point `t` writes back is block `t` of the rectified rows-by-rows product of the two arrays as the region finds
    them. -/
theorem flushed1_eq (c : Dev nD) (t : Fin cfg1.N) :
    (dat1 V c).flushed 2 t = ((cfg1.win 2).blk t).view.read (Elt Ideal)
      (Cert.Gcn.reluRowsByRows (n := 100000) (K := 64) (d := 40) (V c main_v43) (V c main_arg2)) := by
  show (cfg1.win 2).cut (grid1.coords t) ((dat1 V c).after 2 t) = _
  rw [after1_2]
  unfold out1_2
  rw [View.canon_unit_zero offsets_zero]
  simp only [View.ld_unit_zero (S := S5000x64) offsets_zero, View.ld_unit_zero (S := S40x64) offsets_zero]
  obtain ⟨e0, e1, e2, e3, e4, e5⟩ := index_facts1 t
  funext y
  refine (product1_apply (iblk1 V c 0 t) (iblk1 V c 1 t) y).trans ?_
  show _ = Cert.Gcn.reluRowsByRows (n := 100000) (K := 64) (d := 40) (V c main_v43) (V c main_arg2) (((cfg1.win 2).blk t).view.emb y)
  unfold Cert.Gcn.reluRowsByRows
  refine Finset.sum_congr rfl fun k _ => congrArg₂ (· * ·) (congrArg (max · _) ?_) ?_
  · show V c main_v43 (((cfg1.win 0).blk t).view.emb (ix2 (y 0) k)) = V c main_v43 (ix2 ((((cfg1.win 2).blk t).view.emb y) 0) k)
    refine congrArg (V c main_v43) (funext fun a => Fin.ext ?_)
    match a with
    | ⟨0, _⟩ => show win1_0.index t (0 : Fin 2) * 5000 + 1 * (y 0).val = win1_2.index t (0 : Fin 2) * 5000 + 1 * (y 0).val; rw [e0]
    | ⟨1, _⟩ => show win1_0.index t (1 : Fin 2) * 64 + 1 * k.val = k.val; rw [e1]; omega
  · show V c main_arg2 (((cfg1.win 1).blk t).view.emb (ix2 (y 1) k)) = V c main_arg2 (ix2 ((((cfg1.win 2).blk t).view.emb y) 1) k)
    refine congrArg (V c main_arg2) (funext fun a => Fin.ext ?_)
    match a with
    | ⟨0, _⟩ => show win1_1.index t (0 : Fin 2) * 40 + 1 * (y 1).val = win1_2.index t (1 : Fin 2) * 40 + 1 * (y 1).val; rw [e2, e4]
    | ⟨1, _⟩ => show win1_1.index t (1 : Fin 2) * 64 + 1 * k.val = k.val; rw [e3]; omega

/-- An index of the output array is in point `t`'s block iff each coordinate is in the block's range on its axis. -/
theorem mem_block1 (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v44).slice (win1_2.rect t)).set ↔ _
  rw [View.set_slice_whole, Rect.mem_set_unit]
  exact Iff.rfl

/-- The 20 row blocks tile the output: row `i` is in the block of point `i / 5000`. -/
theorem cover1 (i : S100000x40.Idx) : ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 20 := N_1
  let t : Fin cfg1.N := ⟨(i 0).val / 5000, by rw [hN]; omega⟩
  obtain ⟨-, -, -, -, e4, e5⟩ := index_facts1 t
  have e5' : win1_2.index t (0 : Fin 2) = (i 0).val / 5000 := e5
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; rw [e5']; omega
  | ⟨1, _⟩ => show win1_2.index t (1 : Fin 2) * 40 ≤ (i 1).val ∧ (i 1).val < win1_2.index t (1 : Fin 2) * 40 + 40; rw [e4]; omega

/-- The output array after the region: the rectified rows-by-rows product of the two arrays as the region finds them. -/
theorem final1 (c : Dev nD) : (dat1 V c).arrAt 2 cfg1.N
    = Cert.Gcn.reluRowsByRows (n := 100000) (K := 64) (d := 40) (V c main_v43) (V c main_arg2) :=
  (dat1 V c).arrAt_eq_of_cover 2 _ (fun t _ => flushed1_eq V c t) cover1

end Cert.KernelIdeal.Hand1

end
-- ==== Proof.KernelHost.lean ====
/-
  The idealized kernel program's result buffer, read back through its seven segments, is the network's result
  (Spec.lean) of the four arguments.

  Reading from the end: the last stretch of host operations is an aggregation step on 40 columns applied to the second
  kernel region's output array; that array is the rectified rows-by-rows product of the region's two input arrays,
  the table the middle stretch wrote and the second weight table; the middle stretch is an aggregation step on 64
  columns applied to the first region's output array, which is the rows-by-rows product of the features with the
  first weight table.  The edge ids and the edge weights are written by the stretches before the first region and are
  read, unchanged, by both later stretches: no later operation and no region writes them, nor any argument.
-/
import proofs.«143973_j66726611911374_2_alg».proof.Proof.KernelBlocks0
import proofs.«143973_j66726611911374_2_alg».proof.Proof.KernelBlocks1
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Before the first region: the edge ids, the edge weights, the arguments

Three stretches of host operations run before the first region: the one that builds the edge ids and the degrees, the
three operations of the `where` that zeroes the inverse square root at degree zero, and the one that gathers the
two end nodes' values and multiplies them. Each is read from the contents the stretch before it leaves. -/

/-- Every node's degree: one is added at the node of every edge's source. -/
abbrev degree (rows : IVec S1700000 32) : FVec Ideal S100000 .f32 :=
  Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 rows) (broadcastInDim S1700000 ![] bcast_S_S1700000 (constant (F := Ideal) S_ .f32 0x3F800000#32))

theorem first_sources : W1 m ρ c (Proc.devRef .tc main_v3) = Cert.Gcn.sourceIds (m ((c.tc : Thread nD τ).loc main_arg3)) := by
  dsimp only [W1, hostOps0]
  after_results_simp
  rfl

theorem first_targets : W1 m ρ c (Proc.devRef .tc main_v6) = Cert.Gcn.targetIds (m ((c.tc : Thread nD τ).loc main_arg3)) := by
  dsimp only [W1, hostOps0]
  after_results_simp
  rfl

theorem first_positive : W1 m ρ c (Proc.devRef .tc main_v12)
    = cmpf (F := Ideal) .ogt (degree (Cert.Gcn.sourceIds (m ((c.tc : Thread nD τ).loc main_arg3)))) (broadcastInDim S100000 ![] bcast_S_S100000 (constant (F := Ideal) S_ .f32 0x00000000#32)) := by
  dsimp only [W1, hostOps0]
  after_results_simp
  rfl

theorem first_rsqrt : W1 m ρ c (Proc.devRef .tc main_v13)
    = Host.rsqrt (F := Ideal) (degree (Cert.Gcn.sourceIds (m ((c.tc : Thread nD τ).loc main_arg3)))) := by
  dsimp only [W1, hostOps0]
  after_results_simp
  rfl

theorem first_zero : W1 m ρ c (Proc.devRef .tc main_cst_2) = constant (F := Ideal) S_ .f32 0x00000000#32 := by
  dsimp only [W1, hostOps0]
  after_results_simp

/-- The `where`: the inverse square root where the degree is positive, the zero splat elsewhere. -/
theorem second_dinv : W2 m ρ c (Proc.devRef .tc main_v14)
    = select (W1 m ρ c (Proc.devRef .tc main_v12)) (W1 m ρ c (Proc.devRef .tc main_v13))
        (broadcastInDim S100000 ![] bcast_S_S100000 (id (W1 m ρ c (Proc.devRef .tc main_cst_2)))) := by
  dsimp only [W2, hostOps0_1]
  generalize W1 m ρ c = U
  after_results_simp
  rfl

theorem second_keeps (b : Ref sig .tc) (hb : b = main_v3 ∨ b = main_v6 ∨ b = main_arg0 ∨ b = main_arg1 ∨ b = main_arg2) :
    W2 m ρ c (Proc.devRef .tc b) = W1 m ρ c (Proc.devRef .tc b) := by
  dsimp only [W2, hostOps0_1]
  generalize W1 m ρ c = U
  rcases hb with rfl | rfl | rfl | rfl | rfl <;> after_results_simp

/-- The weights: the two end nodes' values gathered and multiplied. -/
theorem third_weights : W3 m ρ c (Proc.devRef .tc main_v29)
    = mulf (F := Ideal) (φ := .f32) (Host.gather gather_S100000_S1700000x1_S1700000_n_0_n_n_0_1_1 (W2 m ρ c (Proc.devRef .tc main_v14)) (Cert.Gcn.startColumn (W2 m ρ c (Proc.devRef .tc main_v3))))
        (Host.gather gather_S100000_S1700000x1_S1700000_n_0_n_n_0_1_1 (W2 m ρ c (Proc.devRef .tc main_v14)) (Cert.Gcn.startColumn (W2 m ρ c (Proc.devRef .tc main_v6)))) := by
  dsimp only [W3, hostOps0_2]
  generalize W2 m ρ c = U
  after_results_simp
  rfl

theorem third_keeps (b : Ref sig .tc) (hb : b = main_v3 ∨ b = main_v6 ∨ b = main_arg0 ∨ b = main_arg1 ∨ b = main_arg2) :
    W3 m ρ c (Proc.devRef .tc b) = W2 m ρ c (Proc.devRef .tc b) := by
  dsimp only [W3, hostOps0_2]
  generalize W2 m ρ c = U
  rcases hb with rfl | rfl | rfl | rfl | rfl <;> after_results_simp

theorem first_keeps (b : Ref sig .tc) (hb : b = main_arg0 ∨ b = main_arg1 ∨ b = main_arg2) :
    W1 m ρ c (Proc.devRef .tc b) = m ((c.tc : Thread nD τ).loc b) := by
  dsimp only [W1, hostOps0]
  rcases hb with rfl | rfl | rfl <;> after_results_simp

theorem entry0_sources : W3 m ρ c (Proc.devRef .tc main_v3) = Cert.Gcn.sourceIds (m ((c.tc : Thread nD τ).loc main_arg3)) :=
  (third_keeps m ρ c main_v3 (.inl rfl)).trans ((second_keeps m ρ c main_v3 (.inl rfl)).trans (first_sources m ρ c))

theorem entry0_targets : W3 m ρ c (Proc.devRef .tc main_v6) = Cert.Gcn.targetIds (m ((c.tc : Thread nD τ).loc main_arg3)) :=
  (third_keeps m ρ c main_v6 (.inr (.inl rfl))).trans ((second_keeps m ρ c main_v6 (.inr (.inl rfl))).trans (first_targets m ρ c))

theorem entry0_weights : W3 m ρ c (Proc.devRef .tc main_v29)
    = Cert.Gcn.edgeWeights (Cert.Gcn.sourceIds (m ((c.tc : Thread nD τ).loc main_arg3))) (Cert.Gcn.targetIds (m ((c.tc : Thread nD τ).loc main_arg3))) := by
  rw [third_weights, second_dinv, second_keeps m ρ c main_v3 (.inl rfl), second_keeps m ρ c main_v6 (.inr (.inl rfl)),
    first_sources, first_targets, first_positive, first_rsqrt, first_zero]
  rfl

theorem entry0_arg0 : V3 m ρ c main_arg0 = m ((c.tc : Thread nD τ).loc main_arg0) :=
  (third_keeps m ρ c main_arg0 (.inr (.inr (.inl rfl)))).trans ((second_keeps m ρ c main_arg0 (.inr (.inr (.inl rfl)))).trans (first_keeps m ρ c main_arg0 (.inl rfl)))

theorem entry0_arg1 : V3 m ρ c main_arg1 = m ((c.tc : Thread nD τ).loc main_arg1) :=
  (third_keeps m ρ c main_arg1 (.inr (.inr (.inr (.inl rfl))))).trans ((second_keeps m ρ c main_arg1 (.inr (.inr (.inr (.inl rfl))))).trans (first_keeps m ρ c main_arg1 (.inr (.inl rfl))))

theorem entry0_arg2 : W3 m ρ c (Proc.devRef .tc main_arg2) = m ((c.tc : Thread nD τ).loc main_arg2) :=
  (third_keeps m ρ c main_arg2 (.inr (.inr (.inr (.inr rfl))))).trans ((second_keeps m ρ c main_arg2 (.inr (.inr (.inr (.inr rfl))))).trans (first_keeps m ρ c main_arg2 (.inr (.inr rfl))))

/-! ## The first region and the middle stretch -/

/-- The first region's output array: the features times the first weight table, rows by rows. -/
theorem exit0_product : W4 m ρ c (Proc.devRef .tc main_v30)
    = Cert.Gcn.rowsByRows (n := 100000) (K := 256) (d := 64) (m ((c.tc : Thread nD τ).loc main_arg0)) (m ((c.tc : Thread nD τ).loc main_arg1)) :=
  (W4_arr m ρ c 2).trans ((final0 (V3 m ρ) c).trans
    (congrArg₂ (Cert.Gcn.rowsByRows (n := 100000) (K := 256) (d := 64)) (entry0_arg0 m ρ c) (entry0_arg1 m ρ c)))

/-- What the middle stretch leaves: the table it writes, and the buffers it only reads. -/
theorem entry1_table : W5 m ρ c (Proc.devRef .tc main_v43)
    = Cert.Gcn.aggregate64 (W4 m ρ c (Proc.devRef .tc main_v3)) (W4 m ρ c (Proc.devRef .tc main_v6)) (W4 m ρ c (Proc.devRef .tc main_v29))
        (W4 m ρ c (Proc.devRef .tc main_v30)) := by
  dsimp only [W5, hostOps1]
  generalize W4 m ρ c = U
  after_results_simp
  rfl

theorem entry1_keeps (b : Ref sig .tc) (hb : b = main_v3 ∨ b = main_v6 ∨ b = main_v29 ∨ b = main_arg2) :
    W5 m ρ c (Proc.devRef .tc b) = W4 m ρ c (Proc.devRef .tc b) := by
  dsimp only [W5, hostOps1]
  generalize W4 m ρ c = U
  rcases hb with rfl | rfl | rfl | rfl <;> after_results_simp

/-! ## The second region and the last stretch -/

theorem result_after : W7 m ρ c (Proc.devRef .tc main_v57)
    = Cert.Gcn.aggregate40 (W6 m ρ c (Proc.devRef .tc main_v3)) (W6 m ρ c (Proc.devRef .tc main_v6)) (W6 m ρ c (Proc.devRef .tc main_v29))
        (W6 m ρ c (Proc.devRef .tc main_v44)) := by
  dsimp only [W7, hostOps2]
  generalize W6 m ρ c = U
  after_results_simp
  rfl

/-- The edge ids and weights as each later boundary finds them. -/
theorem sources_kept : W6 m ρ c (Proc.devRef .tc main_v3) = Cert.Gcn.sourceIds (m ((c.tc : Thread nD τ).loc main_arg3)) ∧
    W4 m ρ c (Proc.devRef .tc main_v3) = Cert.Gcn.sourceIds (m ((c.tc : Thread nD τ).loc main_arg3)) := by
  have h4 : W4 m ρ c (Proc.devRef .tc main_v3) = _ := (W4_of_ne m ρ c main_v3 (by decide)).trans (entry0_sources m ρ c)
  exact ⟨(W6_of_ne m ρ c main_v3 (by decide)).trans ((entry1_keeps m ρ c main_v3 (.inl rfl)).trans h4), h4⟩

theorem targets_kept : W6 m ρ c (Proc.devRef .tc main_v6) = Cert.Gcn.targetIds (m ((c.tc : Thread nD τ).loc main_arg3)) ∧
    W4 m ρ c (Proc.devRef .tc main_v6) = Cert.Gcn.targetIds (m ((c.tc : Thread nD τ).loc main_arg3)) := by
  have h4 : W4 m ρ c (Proc.devRef .tc main_v6) = _ := (W4_of_ne m ρ c main_v6 (by decide)).trans (entry0_targets m ρ c)
  exact ⟨(W6_of_ne m ρ c main_v6 (by decide)).trans ((entry1_keeps m ρ c main_v6 (.inr (.inl rfl))).trans h4), h4⟩

theorem weights_kept : W6 m ρ c (Proc.devRef .tc main_v29)
      = Cert.Gcn.edgeWeights (Cert.Gcn.sourceIds (m ((c.tc : Thread nD τ).loc main_arg3))) (Cert.Gcn.targetIds (m ((c.tc : Thread nD τ).loc main_arg3))) ∧
    W4 m ρ c (Proc.devRef .tc main_v29)
      = Cert.Gcn.edgeWeights (Cert.Gcn.sourceIds (m ((c.tc : Thread nD τ).loc main_arg3))) (Cert.Gcn.targetIds (m ((c.tc : Thread nD τ).loc main_arg3))) := by
  have h4 : W4 m ρ c (Proc.devRef .tc main_v29) = _ := (W4_of_ne m ρ c main_v29 (by decide)).trans (entry0_weights m ρ c)
  exact ⟨(W6_of_ne m ρ c main_v29 (by decide)).trans ((entry1_keeps m ρ c main_v29 (.inr (.inr (.inl rfl)))).trans h4), h4⟩

theorem entry1_arg2 : V5 m ρ c main_arg2 = m ((c.tc : Thread nD τ).loc main_arg2) :=
  (entry1_keeps m ρ c main_arg2 (.inr (.inr (.inr rfl)))).trans ((W4_of_ne m ρ c main_arg2 (by decide)).trans (entry0_arg2 m ρ c))

/-- The table the second region reads: one aggregation step on the first product. -/
theorem entry1_table_eq : V5 m ρ c main_v43
    = Cert.Gcn.aggregate64 (Cert.Gcn.sourceIds (m ((c.tc : Thread nD τ).loc main_arg3))) (Cert.Gcn.targetIds (m ((c.tc : Thread nD τ).loc main_arg3)))
        (Cert.Gcn.edgeWeights (Cert.Gcn.sourceIds (m ((c.tc : Thread nD τ).loc main_arg3))) (Cert.Gcn.targetIds (m ((c.tc : Thread nD τ).loc main_arg3))))
        (Cert.Gcn.rowsByRows (n := 100000) (K := 256) (d := 64) (m ((c.tc : Thread nD τ).loc main_arg0)) (m ((c.tc : Thread nD τ).loc main_arg1))) := by
  refine (entry1_table m ρ c).trans ?_
  rw [(sources_kept m ρ c).2, (targets_kept m ρ c).2, (weights_kept m ρ c).2, exit0_product m ρ c]

/-- The second region's output array. -/
theorem exit1_product : W6 m ρ c (Proc.devRef .tc main_v44)
    = Cert.Gcn.reluRowsByRows (n := 100000) (K := 64) (d := 40) (V5 m ρ c main_v43) (V5 m ρ c main_arg2) :=
  (W6_arr m ρ c 2).trans (Hand1.final1 (V5 m ρ) c)

/-- The result buffer after the run is the network's result of the four arguments. -/
theorem result_eq : W7 m ρ c (Proc.devRef .tc main_v57)
    = Cert.Gcn.result (m ((c.tc : Thread nD τ).loc main_arg0)) (m ((c.tc : Thread nD τ).loc main_arg1))
        (m ((c.tc : Thread nD τ).loc main_arg2)) (m ((c.tc : Thread nD τ).loc main_arg3)) := by
  refine (result_after m ρ c).trans ?_
  rw [(sources_kept m ρ c).1, (targets_kept m ρ c).1, (weights_kept m ρ c).1, exit1_product m ρ c, entry1_table_eq m ρ c,
    entry1_arg2 m ρ c]
  rfl

end Cert.KernelIdeal.Hand

end
-- ==== Proof.lean ====
/-
  A two-layer graph convolution, `aggregate (relu (aggregate (x · W1ᵀ)) · W2ᵀ)`, computed two ways over the same
  normalised edge list: by a program whose two dense products are grid kernels on the matrix unit (the second with the
  rectifier fused into the kernel, both reading their operands in a narrower float format), and by a reference that
  takes both products on the host.  On the extended reals the two results are one function of the four arguments:

  * the change of float format is the identity on exact values, and a product on the matrix unit into a zero
    accumulator is the finite sum `∑ k, a (i, k) * W (j, k)`, as is the host's dot_general with the transposed weight
    table; a finite sum on the extended reals does not depend on order, grouping or tiling, and no entry needs to be
    finite, so the precondition is never opened;
  * each kernel's 20 row blocks tile its output array, so the array after the region is the whole rows-by-rows
    product (Proof/KernelBlocks0.lean, Proof/KernelBlocks1.lean);
  * the edge ids, the edge weights and the two aggregation steps are the same host operations in both programs and
    are carried as opaque terms (Proof/Spec.lean, Proof/KernelHost.lean, Proof/RefIsSpec.lean).

  The three frames are the generated frame certificates (the reference's is its run with the result dropped); the
  idealization rewrote no operation, so `preserves` is `True`.
-/
import proofs.«143973_j66726611911374_2_alg».proof.Defs
import proofs.«143973_j66726611911374_2_alg».proof.Proof.Gen.Kernel
import proofs.«143973_j66726611911374_2_alg».proof.Proof.Gen.Kernel.Frame
import proofs.«143973_j66726611911374_2_alg».proof.Proof.Gen.KernelIdeal
import proofs.«143973_j66726611911374_2_alg».proof.Proof.Gen.KernelIdeal.Frame
import proofs.«143973_j66726611911374_2_alg».proof.Proof.Gen.ReferenceIdeal
import proofs.«143973_j66726611911374_2_alg».proof.Proof.Gen.Pre_finite_inputs
import proofs.«143973_j66726611911374_2_alg».proof.Proof.RefRun
import proofs.«143973_j66726611911374_2_alg».proof.Proof.RefIsSpec
import proofs.«143973_j66726611911374_2_alg».proof.Proof.KernelRun
import proofs.«143973_j66726611911374_2_alg».proof.Proof.KernelHost
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the network's result of the four arguments. -/
theorem algebraic : Cert.algebraic_KernelIdeal_ReferenceIdeal := by
  intro m ρ m' ρ' _ hagree
  refine ⟨fun c => Cert.Gcn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Hand.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
